-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x2048 .f32) (main_arg1 : FVec F S4096x2048 .f32) (main_arg2 : FVec F S4096 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x2048 : Shape := ⟨2, ![4096, 2048]⟩
abbrev S4096 : Shape := ⟨1, ![4096]⟩
abbrev S1x4096 : Shape := ⟨2, ![1, 4096]⟩
abbrev S4096x1 : Shape := ⟨2, ![4096, 1]⟩
abbrev S512x2048 : Shape := ⟨2, ![512, 2048]⟩
abbrev S1x512 : Shape := ⟨2, ![1, 512]⟩
abbrev S512x1 : Shape := ⟨2, ![512, 1]⟩
abbrev S512x512 : Shape := ⟨2, ![512, 512]⟩
abbrev S512x128x4 : Shape := ⟨3, ![512, 128, 4]⟩
abbrev S512x128 : Shape := ⟨2, ![512, 128]⟩
abbrev S512 : Shape := ⟨1, ![512]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096, .f32⟩
  | .hbm, ⟨3, _⟩ => ⟨S1x4096, .f32⟩
  | .hbm, ⟨4, _⟩ => ⟨S4096x1, .f32⟩
  | .hbm, ⟨5, _⟩ => ⟨S4096, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1x512, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4096_S1x4096 : S4096.ShapeCasts S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S512x512_S512x128x4 : S512x512.ShapeCasts S512x128x4
  reduces_S512x128x4_S512x128 : S512x128x4.Reduces [2] S512x128
  reduces_S512x128_S512 : S512x128.Reduces [1] S512
  shapeCasts_S512_S512x1 : S512.ShapeCasts S512x1
  shapeCasts_S4096x1_S4096 : S4096x1.ShapeCasts S4096
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x2048 : Shape := ⟨2, ![4096, 2048]⟩
abbrev S4096 : Shape := ⟨1, ![4096]⟩
abbrev S4096x4096 : Shape := ⟨2, ![4096, 4096]⟩
abbrev S1x4096 : Shape := ⟨2, ![1, 4096]⟩
abbrev S4096x1024x4 : Shape := ⟨3, ![4096, 1024, 4]⟩
abbrev S_ : Shape := ⟨0, ![]⟩
abbrev S4096x1024 : Shape := ⟨2, ![4096, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | .hbm, ⟨7, _⟩ => ⟨S4096x1024x4, .f32⟩
  | .hbm, ⟨8, _⟩ => ⟨S_, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  shapeCasts_S4096x4096_S4096x1024x4 : S4096x4096.ShapeCasts S4096x1024x4
  reducesTo_S4096x1024x4_S4096x1024_d2 : S4096x1024x4.ReducesTo [2] S4096x1024
  h_S_ : 0 < S_.numel
  reducesTo_S4096x1024_S4096_d1 : S4096x1024.ReducesTo [1] S4096
  bcast_S_S4096 : S_.BroadcastsInDim S4096 (![] : Fin 0 → Fin S4096.rank)
  dot_S4096x2048_S4096x2048_S4096x4096_1_1_0_0_n_n_wf : DotDims.WF S4096x2048 S4096x2048 S4096x4096 [1] [1] [0] [0] [] []

variable [Facts₀]

def dot_S4096x2048_S4096x2048_S4096x4096_1_1_0_0_n_n : DotDims S4096x2048 S4096x2048 S4096x4096 where
  lhsContracting := [1]
  rhsContracting := [1]
  lhsNonContracting := [0]
  rhsNonContracting := [0]
  lhsBatch := []
  rhsBatch := []
  wf := dot_S4096x2048_S4096x2048_S4096x4096_1_1_0_0_n_n_wf

class Facts : Prop extends Facts₀ where

variable [Facts]
-- ==== Proof.Spec.lean ====
/-
  The function both programs compute, and the one law that joins them.

  For matrices `X`, `W` (4096 × 2048 each) and a vector `B` (4096), over the extended reals:

      lin b o   = (∑ c < 2048, X b c · W o c) + B o            the linear layer at row b, feature o
      pool b g  = max_{k < 4} lin b (4g + k), taken from −∞     the maximum over group g of four features
      rowsum b n = ∑ g < n, pool b g                            the pooled groups summed, the first n of them
      result b  = rowsum b 1024 · ½

  The reference sums all 1024 groups of a row at once; the kernel sums them 128 at a time, tile after tile. Addition
  on the extended reals is commutative and associative, so a sum over the first 128·(j+1) groups is the sum over the
  first 128·j plus the sum over the next 128 (`rowsum_tile`). Nothing else is needed: no entry has to be finite.

  Row and feature numbers are natural numbers here (read modulo 4096, and only ever used below 4096), so that the
  partial sums need no proofs of bounds inside them.
-/
import Idealize.ShloMosaic.PureOps.Ideal.Laws
import Idealize.ShloMosaic.Lib.ValueIdx

noncomputable section

open Idealize.ShloMosaic Idealize.ShloMosaic.ValueIdx
open scoped BigOperators

namespace LinPool

/-- The shape of the two matrices … -/
abbrev Mat : Shape := ⟨2, ![4096, 2048]⟩
/-- … of the bias and of the result … -/
abbrev Row : Shape := ⟨1, ![4096]⟩
/-- … and of the result as a column. -/
abbrev Col : Shape := ⟨2, ![4096, 1]⟩

/-- A natural number as one of 4096 rows or features. -/
def at4096 (n : ℕ) : Fin 4096 := ⟨n % 4096, Nat.mod_lt n (by decide)⟩

theorem at4096_val (n : ℕ) : (at4096 n).val = n % 4096 := rfl
theorem at4096_eq (i : Fin 4096) : at4096 i.val = i := Fin.ext (Nat.mod_eq_of_lt i.isLt)

variable (X W : Mat.Idx → EReal) (B : Row.Idx → EReal)

/-- The linear layer: row `b` of `X` against row `o` of `W`, plus the bias of feature `o`. -/
def lin (b o : ℕ) : EReal :=
  (∑ c : Fin 2048, X (ix2 (at4096 b) c) * W (ix2 (at4096 o) c)) + B (ix1 (at4096 o))

/-- The maximum, from −∞, over the four features of group `g`. -/
def pool (b g : ℕ) : EReal :=
  (Finset.univ : Finset (Fin 4)).fold max (Ideal.ofBits .f32 0xFF800000#32) (fun k => lin X W B b (4 * g + k.val))

/-- The first `n` pooled groups of row `b`, summed. -/
def rowsum (b n : ℕ) : EReal := ∑ g ∈ Finset.range n, pool X W B b g

/-- The result: all 1024 pooled groups of a row summed, times one half (kept as its word). -/
def G : Row.Idx → EReal := fun i => rowsum X W B (i 0).val 1024 * Ideal.ofBits .f32 0x3F000000#32

/-- The same as a column of 4096 rows. -/
def Gcol : Col.Idx → EReal := fun i => rowsum X W B (i 0).val 1024 * Ideal.ofBits .f32 0x3F000000#32

theorem rowsum_zero (b : ℕ) : rowsum X W B b 0 = 0 := Finset.sum_range_zero _

/-- The sum over the first 128·(j+1) groups is the sum over the first 128·j plus the sum over the next 128. -/
theorem rowsum_tile (b j : ℕ) :
    rowsum X W B b (128 * j) + ∑ g : Fin 128, pool X W B b (128 * j + g.val) = rowsum X W B b (128 * (j + 1)) := by
  unfold rowsum
  rw [show 128 * (j + 1) = 128 * j + 128 by ring, Finset.sum_range_add]
  exact congrArg (_ + ·) (Finset.sum_range fun g => pool X W B b (128 * j + g)).symm

/-- All 1024 groups, as a sum over `Fin 1024`. -/
theorem rowsum_all (b : ℕ) : rowsum X W B b 1024 = ∑ g : Fin 1024, pool X W B b g.val :=
  Finset.sum_range fun g => pool X W B b g

end LinPool

end
-- ==== Proof.RefSide.lean ====
/-
  The reference computes the result function.

  Read one operation at a time, entry `b` of the reference's result is
  (0 + ∑ g < 1024, max_{k < 4} from −∞ of the reshaped sum-plus-bias at (b, g, k)) · ½. The reshape of a row of 4096
  features into 1024 groups of 4 sends (b, g, k) to row-major position (b·1024 + g)·4 + k, which is row b, feature
  4g + k of the 4096 × 4096 array; there the entry is the dot product of row b of the first matrix with row 4g + k of the
  second, plus the bias of feature 4g + k. Adding the zero the sum starts from changes nothing.
-/
import proofs.«122881_j1580547970873_1_alg».proof.Defs
import proofs.«122881_j1580547970873_1_alg».proof.Proof.Gen.ReferenceIdeal.Run
import proofs.«122881_j1580547970873_1_alg».proof.Proof.Gen.ReferenceIdeal.Read
import proofs.«122881_j1580547970873_1_alg».proof.Proof.Spec
import Idealize.ShloMosaic.PureOps.Ideal.Laws
import Idealize.ShloMosaic.Lib.ValueIdx

noncomputable section

open Idealize.ShloMosaic Idealize.ShloMosaic.ValueIdx
open scoped BigOperators

namespace Cert.ReferenceIdeal.RefValue

open Cert.ReferenceIdeal Cert.ReferenceIdeal.Gen Cert.ReferenceIdeal.Read LinPool

variable (X W : (⟨S4096x2048, .f32⟩ : BufTy).Contents (Elt Ideal)) (B : (⟨S4096, .f32⟩ : BufTy).Contents (Elt Ideal))

/-- Member `k` of group `g` of row `b`, in the 4096 × 4096 array before the regrouping: row `b`, feature `4g + k`. -/
theorem member_index (h : S4096x1024x4.Reduces [2] S4096x1024) (b : Fin 4096) (g : Fin 1024) (k : Fin 4) :
    idx_main_v4 (h.lift (idx_main_v6 (ix1 b) g) k) = ix2 (at4096 b.val) (at4096 (4 * g.val + k.val)) := by
  have hb := b.isLt; have hg := g.isLt; have hk := k.isLt
  funext a
  apply Fin.ext
  match a with
  | ⟨0, _⟩ => show ((b.val * 1024 + g.val) * 4 + k.val) / 4096 = b.val % 4096; omega
  | ⟨1, _⟩ => show ((b.val * 1024 + g.val) * 4 + k.val) % 4096 = (4 * g.val + k.val) % 4096; omega

/-- The sum-plus-bias stage at row `b`, feature `o` is the linear layer there. -/
theorem linear_apply (b o : ℕ) :
    val_main_v3 (F := Ideal) X W B (ix2 (at4096 b) (at4096 o)) = LinPool.lin X W B b o := by
  rw [val_main_v3_apply, val_main_v0_apply, val_main_v2_apply, val_main_v1_apply]
  unfold LinPool.lin
  refine congrArg₂ (· + ·) (Finset.sum_congr rfl fun c _ => congrArg₂ (· * ·) (congrArg X ?_) (congrArg W ?_)) (congrArg B ?_)
  · funext a; match a with | ⟨0, _⟩ => rfl | ⟨1, _⟩ => rfl
  · funext a; match a with | ⟨0, _⟩ => rfl | ⟨1, _⟩ => rfl
  · funext a; match a with | ⟨0, _⟩ => rfl

/-- The maximum stage at row `b`, group `g` is the pooled group. -/
theorem pooled_apply (b : Fin 4096) (g : Fin 1024) :
    val_main_v5 (F := Ideal) X W B (idx_main_v6 (ix1 b) g) = LinPool.pool X W B b.val g.val := by
  have h : S4096x1024x4.Reduces [2] S4096x1024 := by decide
  unfold val_main_v5
  refine (Host.reduce_eq_fold_single (FloatOps.maximumf (F := Ideal) (φ := .f32)) _ _ reducesTo_S4096x1024x4_S4096x1024_d2 h h_S_ _).trans ?_
  unfold LinPool.pool
  refine congrArg (fun f => (Finset.univ : Finset (Fin 4)).fold max (Ideal.ofBits .f32 0xFF800000#32) f) (funext fun k => ?_)
  show val_main_v4 (F := Ideal) X W B (h.lift (idx_main_v6 (ix1 b) g) k) = _
  rw [val_main_v4_apply, member_index h b g k]
  exact linear_apply X W B b.val (4 * g.val + k.val)

/-- The reference's result is the result function of its three arguments. -/
theorem result_is_G : val_main_v8 (F := Ideal) X W B = LinPool.G X W B := by
  funext i
  obtain ⟨b, rfl⟩ : ∃ b : Fin 4096, i = ix1 b := ⟨i 0, eq_ix1 i⟩
  rw [val_main_v8_apply, val_main_v7_apply, val_main_cst_1_apply, val_main_v6_apply, val_main_cst_0_apply]
  show (Ideal.ofBits .f32 0x00000000#32 + ∑ k : Fin 1024, val_main_v5 (F := Ideal) X W B (idx_main_v6 (ix1 b) k))
      * Ideal.ofBits .f32 0x3F000000#32 = LinPool.rowsum X W B b.val 1024 * Ideal.ofBits .f32 0x3F000000#32
  rw [Ideal.ofBits_zero_f32, zero_add, LinPool.rowsum_all]
  exact congrArg (· * Ideal.ofBits .f32 0x3F000000#32) (Finset.sum_congr rfl fun g _ => pooled_apply X W B b g)

end Cert.ReferenceIdeal.RefValue

end
-- ==== Proof.Pieces.lean ====
/-
  What the body leaves behind at one grid point, as values.

  The kernel walks an 8 × 8 grid of tiles. At every point it forms, for each of the 512 rows of the tile, one number
  (the row's share of the pooled sum over the 512 features of the tile) and adds it into a column of 512 numbers that
  is carried from point to point. At the first point of a row of tiles the column is cleared before the addition; at
  the last point the updated column is also scaled and stored into the output block.

  Each lemma reads back what one case of the body stored: the column after the point is the body's update `k0_pay2`
  of the column before it (of the cleared column `k0_pay1` at a first point), and the output block at a last point is
  the scaling `k0_pay3` of that update.
-/
import proofs.«122881_j1580547970873_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Carried

open Cert.KernelIdeal Cert.KernelIdeal.Gen

variable {F : FTy → Type} [FloatOps F]

theorem hz : (![0, 0] : Fin 2 → Nat) = fun _ => 0 := funext fun a => by fin_cases a <;> rfl

/-- A point that neither opens nor closes a row of tiles leaves the carried column at the body's update of it. -/
theorem scratch_B (c : Dev nD) (i : grid0.Coords) (a2 : Memref sig .tc .vmem S512x2048 .f32) (h2 : a2.IsWhole) (a3 : Memref sig .tc .vmem S512x2048 .f32) (h3 : a3.IsWhole) (a4 : Memref sig .tc .vmem S1x512 .f32) (h4 : a4.IsWhole) (a5 : Memref sig .tc .vmem S512x1 .f32) (h5 : a5.IsWhole) (a6 : Memref sig .tc .vmem S512x1 .f32) (h6 : a6.IsWhole) (hc0 : ¬cond0_0 i) (hc1 : ¬cond0_1 i) (x0 : Vec F S512x2048 .f32) (x1 : Vec F S512x2048 .f32) (x2 : Vec F S1x512 .f32) (xs0 : Vec F S512x1 .f32) :
    sout0_B_0 c i a2 h2 a3 h3 a4 h4 a5 h5 a6 h6 hc0 hc1 x0 x1 x2 xs0 = k0_pay2 x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  rw [View.canon_unit_zero hz]
  simp only [View.readAt_eq_ld, h2.read_unread, h3.read_unread, h4.read_unread, h6.read_unread,
    View.ld_unit_zero (S := S512x2048) hz, View.ld_unit_zero (S := S1x512) hz, View.ld_unit_zero (S := S512x1) hz]

/-- The first point of a row of tiles clears the carried column and then updates it: the update of the cleared column. -/
theorem scratch_A (c : Dev nD) (i : grid0.Coords) (a2 : Memref sig .tc .vmem S512x2048 .f32) (h2 : a2.IsWhole) (a3 : Memref sig .tc .vmem S512x2048 .f32) (h3 : a3.IsWhole) (a4 : Memref sig .tc .vmem S1x512 .f32) (h4 : a4.IsWhole) (a5 : Memref sig .tc .vmem S512x1 .f32) (h5 : a5.IsWhole) (a6 : Memref sig .tc .vmem S512x1 .f32) (h6 : a6.IsWhole) (hc0 : cond0_0 i) (hc1 : ¬cond0_1 i) (x0 : Vec F S512x2048 .f32) (x1 : Vec F S512x2048 .f32) (x2 : Vec F S1x512 .f32) :
    sout0_A_0 c i a2 h2 a3 h3 a4 h4 a5 h5 a6 h6 hc0 hc1 x0 x1 x2 = k0_pay2 x0 x1 x2 k0_pay1 := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S512x1) hz, View.readCov_unit_zero (S := S512x1) _ hz]
  simp only [View.readAt_eq_ld, h2.read_unread, h3.read_unread, h4.read_unread, h6.read_unread,
    View.ld_unit_zero (S := S512x2048) hz, View.ld_unit_zero (S := S1x512) hz, View.ld_unit_zero (S := S512x1) hz]

/-- The last point of a row of tiles updates the carried column the same way … -/
theorem scratch_C (c : Dev nD) (i : grid0.Coords) (a2 : Memref sig .tc .vmem S512x2048 .f32) (h2 : a2.IsWhole) (a3 : Memref sig .tc .vmem S512x2048 .f32) (h3 : a3.IsWhole) (a4 : Memref sig .tc .vmem S1x512 .f32) (h4 : a4.IsWhole) (a5 : Memref sig .tc .vmem S512x1 .f32) (h5 : a5.IsWhole) (a6 : Memref sig .tc .vmem S512x1 .f32) (h6 : a6.IsWhole) (hc0 : ¬cond0_0 i) (hc1 : cond0_1 i) (x0 : Vec F S512x2048 .f32) (x1 : Vec F S512x2048 .f32) (x2 : Vec F S1x512 .f32) (xs0 : Vec F S512x1 .f32) :
    sout0_C_0 c i a2 h2 a3 h3 a4 h4 a5 h5 a6 h6 hc0 hc1 x0 x1 x2 xs0 = k0_pay2 x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz]
  simp only [View.readAt_eq_ld, h2.read_unread, h3.read_unread, h4.read_unread, h6.read_unread,
    View.ld_unit_zero (S := S512x2048) hz, View.ld_unit_zero (S := S1x512) hz, View.ld_unit_zero (S := S512x1) hz]

/-- … and stores the scaled update into the output block. -/
theorem out_C (c : Dev nD) (i : grid0.Coords) (a2 : Memref sig .tc .vmem S512x2048 .f32) (h2 : a2.IsWhole) (a3 : Memref sig .tc .vmem S512x2048 .f32) (h3 : a3.IsWhole) (a4 : Memref sig .tc .vmem S1x512 .f32) (h4 : a4.IsWhole) (a5 : Memref sig .tc .vmem S512x1 .f32) (h5 : a5.IsWhole) (a6 : Memref sig .tc .vmem S512x1 .f32) (h6 : a6.IsWhole) (hc0 : ¬cond0_0 i) (hc1 : cond0_1 i) (x0 : Vec F S512x2048 .f32) (x1 : Vec F S512x2048 .f32) (x2 : Vec F S1x512 .f32) (xs0 : Vec F S512x1 .f32) :
    out0_C_3 c i a2 h2 a3 h3 a4 h4 a5 h5 a6 h6 hc0 hc1 x0 x1 x2 xs0 = k0_pay3 (k0_pay2 x0 x1 x2 xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz, View.readCov_unit_zero (S := S512x1) _ hz]
  simp only [View.readAt_eq_ld, h2.read_unread, h3.read_unread, h4.read_unread, h6.read_unread,
    View.ld_unit_zero (S := S512x2048) hz, View.ld_unit_zero (S := S1x512) hz, View.ld_unit_zero (S := S512x1) hz]

end Cert.KernelIdeal.Carried
end
-- ==== Proof.Payload.lean ====
/-
  The body's update of the carried column, read at one row.

  For a 512 × 2048 block `x` of the first matrix, a 512 × 2048 block `w` of the second, the matching 512 biases `b`
  and the column `s` carried so far, the update at row `r` is

      s r + ∑ g < 128, max_{k < 4} ( (∑ c < 2048, x r c · w (4g + k) c) + b (4g + k) ),

  the maximum taken from −∞. Over the extended reals the narrowing of the two blocks is the identity, the product
  into a zero accumulator is the plain sum of products, the regrouping of a row of 512 into 128 groups of 4 sends
  (g, k) to feature 4g + k, and the two reductions are the maximum over a group and the sum over the groups.
-/
import proofs.«122881_j1580547970873_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Tile

open Cert.KernelIdeal Cert.KernelIdeal.Gen

/-- Feature `4g + k` of a tile of 512 features: member `k` of group `g`. -/
def lane (g : Fin 128) (k : Fin 4) : Fin 512 := ⟨4 * g.val + k.val, by have := g.isLt; have := k.isLt; omega⟩

/-- The tile's dimension numbers: rows of the first block against rows of the second, contracted along the 2048 columns. -/
abbrev D : DotDims S512x2048 S512x2048 S512x512 := dot_S512x2048_S512x2048_S512x512_1_1_0_0_n_n

/-- A vector of 512 entries viewed as a column: entry `r`. -/
theorem col_of_vec (v : FVec Ideal S512 .f32) (h : S512.ShapeCasts S512x1) (r : Fin 512) (z : Fin 1) :
    shapeCast S512x1 v h (ix2 r z) = v (ix1 r) :=
  shapeCast_apply v h (ix2 r z) (ix1 r) (by
    rw [Shape.rowMajor_val_one, Shape.rowMajor_val_two]
    show r.val = r.val * 1 + z.val
    have := z.isLt; omega)

/-- The sum along the 128 groups of a row. -/
theorem sum_over_groups (v : FVec Ideal S512x128 .f32) (h : S512x128.Reduces [1] S512) (hφ : FKind.Formats .f32)
    (hacc : (0x00000000#32 : BitVec 32) = FKind.add.neutral .f32 hφ) (r : Fin 512) :
    multiReduction .add [1] S512 v 0x00000000#32 h hφ hacc (ix1 r) = ∑ g : Fin 128, v (ix2 r g) := by
  refine (Ideal.multiReduction_add_single v _ h hφ hacc (ix1 r)).trans ?_
  refine Finset.sum_congr rfl fun g _ => congrArg v ?_
  funext a
  apply Fin.ext
  match a with
  | ⟨0, _⟩ => rfl
  | ⟨1, _⟩ => rfl

/-- The maximum, from −∞, over the 4 members of a group. -/
theorem max_over_lanes (v : FVec Ideal S512x128x4 .f32) (h : S512x128x4.Reduces [2] S512x128) (hφ : FKind.Formats .f32)
    (hacc : (0xFF800000#32 : BitVec 32) = FKind.maximumf.neutral .f32 hφ) (r : Fin 512) (g : Fin 128) :
    multiReduction .maximumf [2] S512x128 v 0xFF800000#32 h hφ hacc (ix2 r g)
      = (Finset.univ : Finset (Fin 4)).fold max (Ideal.ofBits .f32 0xFF800000#32) (fun k => v (ix3 r g k)) := by
  refine (Ideal.multiReduction_maximumf_single v _ h hφ hacc (ix2 r g)).trans ?_
  refine congrArg (fun f => (Finset.univ : Finset (Fin 4)).fold max (Ideal.ofBits .f32 0xFF800000#32) f) (funext fun k => congrArg v ?_)
  funext a
  apply Fin.ext
  match a with
  | ⟨0, _⟩ => rfl
  | ⟨1, _⟩ => rfl
  | ⟨2, _⟩ => rfl

/-- A row of 512 features regrouped as 128 groups of 4: member `k` of group `g` is feature `4g + k`. -/
theorem groups_of_row (v : FVec Ideal S512x512 .f32) (h : S512x512.ShapeCasts S512x128x4) (r : Fin 512) (g : Fin 128) (k : Fin 4) :
    shapeCast S512x128x4 v h (ix3 r g k) = v (ix2 r (lane g k)) :=
  shapeCast_apply v h (ix3 r g k) (ix2 r (lane g k)) (by
    rw [Shape.rowMajor_val_two, Shape.rowMajor_val_three]
    show r.val * 512 + (4 * g.val + k.val) = (r.val * 128 + g.val) * 4 + k.val
    omega)

/-- The row of 512 biases repeated down the 512 rows. -/
theorem bias_row (b : FVec Ideal S1x512 .f32) (h1 : S1x512.ShapeCasts S1x512) (h2 : S1x512.Broadcasts S512x512) (r o : Fin 512) :
    broadcastTo S512x512 (shapeCast S1x512 b h1) h2 (ix2 r o) = b (ix2 (0 : Fin 1) o) := by
  rw [shapeCast_self]
  exact broadcastTo_apply b h2 (ix2 r o) (ix2 (0 : Fin 1) o) (fun a => match a with
    | ⟨0, _⟩ => by show 0 = if (1 : Nat) = 1 then 0 else r.val; rw [if_pos rfl]
    | ⟨1, _⟩ => by show o.val = if (512 : Nat) = 1 then 0 else o.val; rw [if_neg (by decide)])

theorem lhs_row (j : S512x512.Idx) (q : D.contr.Idx) : (D.lhsIdx j q 0).val = (j 0).val := by
  unfold DotDims.lhsIdx
  rw [dif_neg (show ¬(0 : Fin S512x2048.rank) ∈ D.lhsBatch by decide), dif_pos (show (0 : Fin S512x2048.rank) ∈ D.lhsNonContracting by decide)]
  rfl
theorem rhs_row (j : S512x512.Idx) (q : D.contr.Idx) : (D.rhsIdx j q 0).val = (j 1).val := by
  unfold DotDims.rhsIdx
  rw [dif_neg (show ¬(0 : Fin S512x2048.rank) ∈ D.rhsBatch by decide), dif_pos (show (0 : Fin S512x2048.rank) ∈ D.rhsNonContracting by decide)]
  rfl

/-- The product of the two narrowed blocks into a zero accumulator: entry (r, o) is the sum over the 2048 columns of
    row `r` of the first times row `o` of the second. -/
theorem tile_product (x w : FVec Ideal S512x2048 .f32) (h : FTy.bits .bf16 < FTy.bits .f32) (r o : Fin 512) :
    matmul (F := Ideal) D none (truncf .bf16 x h) (truncf .bf16 w h) (constant S512x512 .f32 0x00000000#32) (ix2 r o)
      = ∑ c : Fin 2048, x (ix2 r c) * w (ix2 o c) := by
  refine (Ideal.matmul_constant_zero_apply D none _ _ (ix2 r o)).trans ?_
  rw [← Equiv.sum_comp (contrEquiv1 D 2048 rfl rfl).symm]
  refine Finset.sum_congr rfl fun c _ => ?_
  have hk := contrEquiv1_symm_val D 2048 rfl rfl c
  have el : D.lhsIdx (ix2 r o) ((contrEquiv1 D 2048 rfl rfl).symm c) = ix2 r c := funext fun a => Fin.ext (by
    match a with
    | ⟨0, _⟩ => exact lhs_row _ _
    | ⟨1, _⟩ => exact (D.lhsIdx_val_of_single rfl _ _).trans hk)
  have er : D.rhsIdx (ix2 r o) ((contrEquiv1 D 2048 rfl rfl).symm c) = ix2 o c := funext fun a => Fin.ext (by
    match a with
    | ⟨0, _⟩ => exact rhs_row _ _
    | ⟨1, _⟩ => exact (D.rhsIdx_val_of_single rfl _ _).trans hk)
  show x (D.lhsIdx (ix2 r o) _) * w (D.rhsIdx (ix2 r o) _) = _
  rw [el, er]

/-- The update of the carried column at row `r`. -/
theorem update_apply (x w : Vec Ideal S512x2048 .f32) (b : Vec Ideal S1x512 .f32) (s : Vec Ideal S512x1 .f32) (r : Fin 512) (z : Fin 1) :
    k0_pay2 (F := Ideal) x w b s (ix2 r z)
      = s (ix2 r z) + ∑ g : Fin 128, (Finset.univ : Finset (Fin 4)).fold max (Ideal.ofBits .f32 0xFF800000#32)
          (fun k => (∑ c : Fin 2048, x (ix2 r c) * w (ix2 (lane g k) c)) + b (ix2 (0 : Fin 1) (lane g k))) := by
  unfold k0_pay2
  refine (congrFun (shapeCast_self _ _) _).trans ?_
  refine congrArg (s (ix2 r z) + ·) ?_
  refine (col_of_vec _ _ r z).trans ?_
  refine (sum_over_groups _ _ _ _ r).trans ?_
  refine Finset.sum_congr rfl fun g _ => ?_
  refine (max_over_lanes _ _ _ _ r g).trans ?_
  refine congrArg (fun f => (Finset.univ : Finset (Fin 4)).fold max (Ideal.ofBits .f32 0xFF800000#32) f) (funext fun k => ?_)
  refine (groups_of_row _ _ r g k).trans ?_
  exact congrArg₂ (· + ·) (tile_product x w _ r (lane g k)) (bias_row b _ _ r (lane g k))

/-- The cleared column is zero everywhere. -/
theorem cleared_apply (j : S512x1.Idx) : k0_pay1 (F := Ideal) j = 0 := by
  unfold k0_pay1
  refine (congrFun (shapeCast_self _ _) _).trans ?_
  exact Ideal.ofBits_zero_f32

/-- The stored output is the column times the constant one half (kept as its word). -/
theorem scaled_apply (s : Vec Ideal S512x1 .f32) (j : S512x1.Idx) :
    k0_pay3 (F := Ideal) s j = s j * Ideal.ofBits .f32 0x3F000000#32 := rfl

end Cert.KernelIdeal.Tile

end
-- ==== Proof.Blocks.lean ====
/-
  The three input blocks of a grid point, read in the whole arrays.

  The 64 grid points are numbered row by row: point `t` works on tile row `t / 8` (512 rows of the first matrix)
  and tile column `t % 8` (512 features: 512 rows of the second matrix and 512 biases). So at point `t`
    entry (r, c) of the first block  is entry (512·(t/8) + r, c) of the first matrix,
    entry (o, c) of the second block is entry (512·(t%8) + o, c) of the second matrix,
    entry (0, o) of the bias block   is bias 512·(t%8) + o
  (the biases reach the kernel as a single row of 4096, the bias vector reshaped).
-/
import proofs.«122881_j1580547970873_1_alg».proof.Proof.Gen.KernelIdeal.Frame
import proofs.«122881_j1580547970873_1_alg».proof.Proof.Spec
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen LinPool

variable (m : (ℓ : Loc nD τ sig) → Buf (Elt Ideal) ℓ)

/-- Where each window's block sits at point `t`, in blocks: decided over the 64 points. -/
theorem index_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val % 8
    ∧ win0_3.index t (0 : Fin 2) = t.val / 8 ∧ win0_3.index t (1 : Fin 2) = 0 :=
  (by decide +kernel : ∀ t : Fin grid0.N, _)

theorem point_lt (t : Fin cfg0.N) : t.val < 64 := lt_of_lt_of_eq t.isLt (show cfg0.N = 64 from N_0)

/-- The first block at point `t`: rows 512·(t/8) … of the first matrix. -/
theorem x_block (c : Dev nD) (t : Fin cfg0.N) (r : Fin 512) (k : Fin 2048) :
    (iblk m c 0 t : Vec Ideal S512x2048 .f32) (ix2 r k)
      = m ((c : Thread nD τ).loc main_arg0) (ix2 (at4096 (512 * (t.val / 8) + r.val)) k) := by
  obtain ⟨e0, e1, -⟩ := index_facts t
  have hN := point_lt t
  have hr := r.isLt
  unfold iblk
  rw [View.read_apply, ← V_main_arg0 m c]
  show V m c main_arg0 _ = V m c main_arg0 _
  refine congrArg (V m c main_arg0) (funext fun a => Fin.ext ?_)
  match a with
  | ⟨0, _⟩ => show win0_0.index t (0 : Fin 2) * 512 + 1 * r.val = (512 * (t.val / 8) + r.val) % 4096; rw [e0]; omega
  | ⟨1, _⟩ => show win0_0.index t (1 : Fin 2) * 2048 + 1 * k.val = k.val; rw [e1]; omega

/-- The second block at point `t`: rows 512·(t%8) … of the second matrix. -/
theorem w_block (c : Dev nD) (t : Fin cfg0.N) (o : Fin 512) (k : Fin 2048) :
    (iblk m c 1 t : Vec Ideal S512x2048 .f32) (ix2 o k)
      = m ((c : Thread nD τ).loc main_arg1) (ix2 (at4096 (512 * (t.val % 8) + o.val)) k) := by
  obtain ⟨-, -, e0, e1, -⟩ := index_facts t
  have hN := point_lt t
  have ho := o.isLt
  unfold iblk
  rw [View.read_apply, ← V_main_arg1 m c]
  show V m c main_arg1 _ = V m c main_arg1 _
  refine congrArg (V m c main_arg1) (funext fun a => Fin.ext ?_)
  match a with
  | ⟨0, _⟩ => show win0_1.index t (0 : Fin 2) * 512 + 1 * o.val = (512 * (t.val % 8) + o.val) % 4096; rw [e0]; omega
  | ⟨1, _⟩ => show win0_1.index t (1 : Fin 2) * 2048 + 1 * k.val = k.val; rw [e1]; omega

/-- The row of biases as the region finds it: the bias vector viewed as one row of 4096. -/
theorem bias_array (c : Dev nD) :
    (V m c main_v0 : S1x4096.Idx → EReal) = shapeCast S1x4096 (m ((c : Thread nD τ).loc main_arg2)) shapeCasts_S4096_S1x4096 := by
  show StableHlo.after hostOps0 (fun b => m (c, b)) (Proc.devRef .tc main_v0) = _
  after_results <;> rfl

/-- The bias block at point `t`: biases 512·(t%8) …. -/
theorem b_block (c : Dev nD) (t : Fin cfg0.N) (o : Fin 512) :
    (iblk m c 2 t : Vec Ideal S1x512 .f32) (ix2 (0 : Fin 1) o)
      = m ((c : Thread nD τ).loc main_arg2) (ix1 (at4096 (512 * (t.val % 8) + o.val))) := by
  obtain ⟨-, -, -, -, e0, e1, -⟩ := index_facts t
  have hN := point_lt t
  have ho := o.isLt
  unfold iblk
  rw [View.read_apply]
  show V m c main_v0 _ = _
  rw [bias_array]
  refine shapeCast_apply _ _ _ (ix1 (at4096 (512 * (t.val % 8) + o.val))) ?_
  rw [Shape.rowMajor_val_one, Shape.rowMajor_val_two]
  show (512 * (t.val % 8) + o.val) % 4096 = (win0_2.index t (0 : Fin 2) * 1 + 1 * 0) * 4096 + (win0_2.index t (1 : Fin 2) * 512 + 1 * o.val)
  rw [e0, e1]; omega

end Cert.KernelIdeal.Blocks

end
-- ==== Proof.Accum.lean ====
/-
  The carried column, point by point.

  Within one row of tiles (8 consecutive grid points, tile columns 0 … 7) the column carried between the points holds,
  after the point of tile column j, for each of the tile's 512 rows r, the sum of the first 128·(j+1) pooled groups of
  row 512·(t/8) + r of the whole problem: the first point clears the column and adds its 128 groups, every later point
  adds the next 128. By induction on the point.
-/
import proofs.«122881_j1580547970873_1_alg».proof.Proof.Pieces
import proofs.«122881_j1580547970873_1_alg».proof.Proof.Payload
import proofs.«122881_j1580547970873_1_alg».proof.Proof.Blocks

noncomputable section

open Idealize.ShloMosaic Idealize.ShloMosaic.TcCoe Idealize.SL.Sem Idealize.ShloMosaic.ValueIdx
open Idealize.ShloMosaic.Pipeline (Dat)
open scoped BigOperators

namespace Cert.KernelIdeal.Accum

open Cert.KernelIdeal Cert.KernelIdeal.Gen Cert.KernelIdeal.Tile Cert.KernelIdeal.Blocks Cert.KernelIdeal.Carried

variable (m : (ℓ : Loc nD τ sig) → Buf (Elt Ideal) ℓ)

/-- The three argument arrays as launched. -/
abbrev aX (c : Dev nD) : LinPool.Mat.Idx → EReal := m ((c : Thread nD τ).loc main_arg0)
abbrev aW (c : Dev nD) : LinPool.Mat.Idx → EReal := m ((c : Thread nD τ).loc main_arg1)
abbrev aB (c : Dev nD) : LinPool.Row.Idx → EReal := m ((c : Thread nD τ).loc main_arg2)

/-- The 128 pooled groups a point adds, row by row: for blocks that are rows 512·i … of the first matrix, rows
    512·j … of the second and biases 512·j …, the groups 128·j … of row 512·i + r. -/
theorem tile_sum (X W : LinPool.Mat.Idx → EReal) (B : LinPool.Row.Idx → EReal)
    (x w : Vec Ideal S512x2048 .f32) (b : Vec Ideal S1x512 .f32) (i j : ℕ)
    (hx : ∀ (r : Fin 512) (q : Fin 2048), x (ix2 r q) = X (ix2 (LinPool.at4096 (512 * i + r.val)) q))
    (hw : ∀ (o : Fin 512) (q : Fin 2048), w (ix2 o q) = W (ix2 (LinPool.at4096 (512 * j + o.val)) q))
    (hb : ∀ o : Fin 512, b (ix2 (0 : Fin 1) o) = B (ix1 (LinPool.at4096 (512 * j + o.val)))) (r : Fin 512) :
    (∑ g : Fin 128, (Finset.univ : Finset (Fin 4)).fold max (Ideal.ofBits .f32 0xFF800000#32)
        (fun k => (∑ q : Fin 2048, x (ix2 r q) * w (ix2 (lane g k) q)) + b (ix2 (0 : Fin 1) (lane g k))))
      = ∑ g : Fin 128, LinPool.pool X W B (512 * i + r.val) (128 * j + g.val) := by
  refine Finset.sum_congr rfl fun g _ => ?_
  unfold LinPool.pool LinPool.lin
  refine congrArg (fun f => (Finset.univ : Finset (Fin 4)).fold max (Ideal.ofBits .f32 0xFF800000#32) f) (funext fun k => ?_)
  have e : 512 * j + (lane g k).val = 4 * (128 * j + g.val) + k.val := by
    show 512 * j + (4 * g.val + k.val) = _; omega
  refine congrArg₂ (· + ·) (Finset.sum_congr rfl fun q _ => congrArg₂ (· * ·) (hx r q) ((hw (lane g k) q).trans ?_))
    ((hb (lane g k)).trans ?_)
  · rw [e]
  · rw [e]

/-- The column after a point that opens a row of tiles … -/
theorem col_first (c : Dev nD) (t : Fin cfg0.N) (h0 : t.val % 8 = 0) (h1 : ¬t.val % 8 = 7) :
    (outsAt0 m c t.val t.isLt).2 = k0_pay2 (F := Ideal) (iblk m c 0 t) (iblk m c 1 t) (iblk m c 2 t) (k0_pay1 (F := Ideal)) := by
  rw [outsAt0_A m c t h0 h1]
  exact scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- … after a point in the middle of one … -/
theorem col_middle (c : Dev nD) (t : Fin cfg0.N) (h0 : ¬t.val % 8 = 0) (h1 : ¬t.val % 8 = 7) :
    (outsAt0 m c t.val t.isLt).2 = k0_pay2 (F := Ideal) (iblk m c 0 t) (iblk m c 1 t) (iblk m c 2 t)
      (outsAt0 m c (t.val - 1) (Nat.lt_of_le_of_lt (Nat.sub_le _ _) t.isLt)).2 := by
  rw [outsAt0_B m c t h0 h1]
  exact scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t)
    (outsAt0 m c (t.val - 1) (Nat.lt_of_le_of_lt (Nat.sub_le _ _) t.isLt)).2

/-- … and after the point that closes it, where the output block also receives the scaled column. -/
theorem col_last (c : Dev nD) (t : Fin cfg0.N) (h0 : ¬t.val % 8 = 0) (h1 : t.val % 8 = 7) :
    (outsAt0 m c t.val t.isLt).2 = k0_pay2 (F := Ideal) (iblk m c 0 t) (iblk m c 1 t) (iblk m c 2 t)
      (outsAt0 m c (t.val - 1) (Nat.lt_of_le_of_lt (Nat.sub_le _ _) t.isLt)).2 := by
  rw [outsAt0_C m c t h0 h1]
  exact scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
    (outsAt0 m c (t.val - 1) (Nat.lt_of_le_of_lt (Nat.sub_le _ _) t.isLt)).2

theorem out_last (c : Dev nD) (t : Fin cfg0.N) (h0 : ¬t.val % 8 = 0) (h1 : t.val % 8 = 7) :
    (outsAt0 m c t.val t.isLt).1 = k0_pay3 (F := Ideal) (k0_pay2 (F := Ideal) (iblk m c 0 t) (iblk m c 1 t) (iblk m c 2 t)
      (outsAt0 m c (t.val - 1) (Nat.lt_of_le_of_lt (Nat.sub_le _ _) t.isLt)).2) := by
  rw [outsAt0_C m c t h0 h1]
  exact out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
    (outsAt0 m c (t.val - 1) (Nat.lt_of_le_of_lt (Nat.sub_le _ _) t.isLt)).2

/-- One update: a column holding the first 128·j groups of its rows, updated at the point of tile column j, holds the
    first 128·(j+1). -/
theorem update_step (c : Dev nD) (t : Fin cfg0.N) (s : Vec Ideal S512x1 .f32) (r : Fin 512) (z : Fin 1)
    (hs : s (ix2 r z) = LinPool.rowsum (aX m c) (aW m c) (aB m c) (512 * (t.val / 8) + r.val) (128 * (t.val % 8))) :
    k0_pay2 (F := Ideal) (iblk m c 0 t) (iblk m c 1 t) (iblk m c 2 t) s (ix2 r z)
      = LinPool.rowsum (aX m c) (aW m c) (aB m c) (512 * (t.val / 8) + r.val) (128 * (t.val % 8 + 1)) := by
  refine (update_apply (iblk m c 0 t) (iblk m c 1 t) (iblk m c 2 t) s r z).trans ?_
  refine (congrArg₂ (· + ·) hs (tile_sum (aX m c) (aW m c) (aB m c) (iblk m c 0 t) (iblk m c 1 t) (iblk m c 2 t)
    (t.val / 8) (t.val % 8) (x_block m c t) (w_block m c t) (b_block m c t) r)).trans ?_
  exact LinPool.rowsum_tile _ _ _ _ _

/-- THE INVARIANT: after point n the carried column holds, at row r, the first 128·(n%8 + 1) pooled groups of row
    512·(n/8) + r, summed. -/
theorem carried (c : Dev nD) : ∀ (n : ℕ) (h : n < cfg0.N) (r : Fin 512) (z : Fin 1),
    (outsAt0 m c n h).2 (ix2 r z)
      = LinPool.rowsum (aX m c) (aW m c) (aB m c) (512 * (n / 8) + r.val) (128 * (n % 8 + 1)) := by
  intro n
  induction n with
  | zero =>
    intro h r z
    have e := col_first m c ⟨0, h⟩ (by rfl) (by show ¬(0 % 8 = 7); decide)
    rw [show (outsAt0 m c 0 h).2 = _ from e]
    refine update_step m c ⟨0, h⟩ _ r z ?_
    rw [cleared_apply]
    exact (LinPool.rowsum_zero _ _ _ _).symm
  | succ n ih =>
    intro h r z
    have hN : n + 1 < 64 := lt_of_lt_of_eq h (show cfg0.N = 64 from N_0)
    by_cases h0 : (n + 1) % 8 = 0
    · have h1 : ¬(n + 1) % 8 = 7 := by omega
      have e := col_first m c ⟨n + 1, h⟩ h0 h1
      rw [show (outsAt0 m c (n + 1) h).2 = _ from e]
      refine update_step m c ⟨n + 1, h⟩ _ r z ?_
      rw [cleared_apply]
      show (0 : EReal) = LinPool.rowsum _ _ _ _ (128 * ((n + 1) % 8))
      rw [h0]
      exact (LinPool.rowsum_zero _ _ _ _).symm
    · have e : (outsAt0 m c (n + 1) h).2 = k0_pay2 (F := Ideal) (iblk m c 0 ⟨n + 1, h⟩) (iblk m c 1 ⟨n + 1, h⟩) (iblk m c 2 ⟨n + 1, h⟩)
          (outsAt0 m c n (Nat.lt_of_succ_lt h)).2 := by
        by_cases h1 : (n + 1) % 8 = 7
        · exact col_last m c ⟨n + 1, h⟩ h0 h1
        · exact col_middle m c ⟨n + 1, h⟩ h0 h1
      rw [e]
      refine update_step m c ⟨n + 1, h⟩ _ r z ?_
      rw [ih (Nat.lt_of_succ_lt h) r z]
      show LinPool.rowsum _ _ _ (512 * (n / 8) + r.val) (128 * (n % 8 + 1)) = LinPool.rowsum _ _ _ (512 * ((n + 1) / 8) + r.val) (128 * ((n + 1) % 8))
      have a1 : n / 8 = (n + 1) / 8 := by omega
      have a2 : n % 8 + 1 = (n + 1) % 8 := by omega
      rw [a1, a2]

/-- What the closing point of a row of tiles stores to the output block: all 1024 groups of each of its rows, summed
    and scaled. -/
theorem stored (c : Dev nD) (t : Fin cfg0.N) (h1 : t.val % 8 = 7) (r : Fin 512) (z : Fin 1) :
    (outsAt0 m c t.val t.isLt).1 (ix2 r z)
      = LinPool.rowsum (aX m c) (aW m c) (aB m c) (512 * (t.val / 8) + r.val) 1024 * Ideal.ofBits .f32 0x3F000000#32 := by
  have h0 : ¬t.val % 8 = 0 := by omega
  have hN := point_lt t
  rw [out_last m c t h0 h1, scaled_apply]
  refine congrArg (· * Ideal.ofBits .f32 0x3F000000#32) ?_
  refine (update_step m c t _ r z ?_).trans ?_
  · rw [carried m c (t.val - 1) _ r z]
    have a1 : (t.val - 1) / 8 = t.val / 8 := by omega
    have a2 : (t.val - 1) % 8 + 1 = t.val % 8 := by omega
    rw [a1, a2]
  · rw [h1]

end Cert.KernelIdeal.Accum

end
-- ==== Proof.Final.lean ====
/-
  The kernel's result.

  Only the last point of each row of tiles writes its output block back, and what it writes is the 512 rows
  512·(t/8) … of the result column: all 1024 pooled groups of each row summed, times one half. The eight closing
  points (t = 7, 15, …, 63) cover the 4096 rows: row b is written by the closing point of tile row b / 512. After the
  region the column of 4096 rows is reshaped to a vector of 4096, entry b of which is row b of the column.
-/
import proofs.«122881_j1580547970873_1_alg».proof.Proof.Accum
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks Cert.KernelIdeal.Accum

variable (m : (ℓ : Loc nD τ sig) → Buf (Elt Ideal) ℓ) (ρ : Dev nD → PrngReg)

/-- What a closing point writes back is its block of the result column. -/
theorem flushed_eq (c : Dev nD) (t : Fin cfg0.N) (hf : (cfg0.win 3).flush t = true) :
    (dats m 0 c).flushed 3 t
      = ((cfg0.win 3).blk t).view.read (Elt Ideal) (LinPool.Gcol (aX m c) (aW m c) (aB m c)) := by
  have h7 : t.val % 8 = 7 := (flush0_3 t).mp hf
  obtain ⟨-, -, -, -, -, -, e0, e1⟩ := index_facts t
  have hN := point_lt t
  show (cfg0.win 3).cut (grid0.coords t) ((dats m 0 c).after 3 t) = _
  rw [after0_3]
  funext y
  obtain ⟨r, z, rfl⟩ : ∃ (r : Fin 512) (z : Fin 1), y = ix2 r z := ⟨y 0, y 1, eq_ix2 y⟩
  show (outsAt0 m c t.val t.isLt).1 (ix2 r z)
    = LinPool.Gcol (aX m c) (aW m c) (aB m c) (((cfg0.win 3).blk t).view.emb (ix2 r z))
  rw [stored m c t h7 r z]
  unfold LinPool.Gcol
  refine congrArg (fun n => LinPool.rowsum (aX m c) (aW m c) (aB m c) n 1024 * Ideal.ofBits .f32 0x3F000000#32) ?_
  show 512 * (t.val / 8) + r.val = win0_3.index t (0 : Fin 2) * 512 + 1 * r.val
  rw [e0]; omega

/-- A row of the column is in point `t`'s block iff it lies in the block's range on each axis. -/
theorem mem_blk (t : Fin cfg0.N) (i : S4096x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v1).slice (win0_3.rect t)).set ↔ _
  rw [View.set_slice_whole, Rect.mem_set_unit]
  exact Iff.rfl

/-- Every row is written by the closing point of its row of tiles. -/
theorem cover (i : S4096x1.Idx) : ∃ t : Fin cfg0.N, (cfg0.win 3).flush t = true ∧ i ∈ ((cfg0.win 3).blk t).view.set := by
  have hi0 : (i 0).val < 4096 := (i 0).isLt
  have hi1 : (i 1).val < 1 := (i 1).isLt
  have hN : cfg0.N = 64 := N_0
  obtain ⟨t, ht⟩ : ∃ t : Fin cfg0.N, t.val = 8 * ((i 0).val / 512) + 7 := ⟨⟨8 * ((i 0).val / 512) + 7, by rw [hN]; omega⟩, rfl⟩
  obtain ⟨-, -, -, -, -, -, e0, e1⟩ := index_facts t
  refine ⟨t, (flush0_3 t).mpr (by rw [ht]; omega), ?_⟩
  rw [mem_blk]
  intro a
  match a with
  | ⟨0, _⟩ => show win0_3.index t (0 : Fin 2) * 512 ≤ (i 0).val ∧ (i 0).val < win0_3.index t (0 : Fin 2) * 512 + 512; rw [e0, ht]; omega
  | ⟨1, _⟩ => show win0_3.index t (1 : Fin 2) * 1 ≤ (i 1).val ∧ (i 1).val < win0_3.index t (1 : Fin 2) * 1 + 1; rw [e1]; omega

/-- So the column ends holding the result column. -/
theorem final (c : Dev nD) : (dats m 0 c).arrAt 3 cfg0.N = LinPool.Gcol (aX m c) (aW m c) (aB m c) :=
  (dats m 0 c).arrAt_eq_of_cover 3 (LinPool.Gcol (aX m c) (aW m c) (aB m c)) (flushed_eq m c) cover

/-- And the vector it is reshaped to is the result function of the three arguments. -/
theorem result_eq (c : Dev nD) :
    Pipeline.afterTail₀ cfgs (dats m) 0 (V0 m) [hostOps1] c main_v2 = LinPool.G (aX m c) (aW m c) (aB m c) := by
  unfold Pipeline.afterTail₀
  show StableHlo.after hostOps1 _ (Proc.devRef .tc main_v2) = _
  after_results
  funext i
  obtain ⟨b, rfl⟩ : ∃ b : Fin 4096, i = ix1 b := ⟨i 0, eq_ix1 i⟩
  show shapeCast S4096 (Pipeline.withArrays spec0 c (V0 m c) (fun w => (dats m 0 c).arrAt w cfg0.N) (Proc.devRef .tc main_v1))
    shapeCasts_S4096x1_S4096 (ix1 b) = _
  rw [show Pipeline.withArrays spec0 c (V0 m c) (fun w => (dats m 0 c).arrAt w cfg0.N) (Proc.devRef .tc main_v1)
        = LinPool.Gcol (aX m c) (aW m c) (aB m c) from
      (Pipeline.withArrays_arr spec0 launch0.win.arr_inj c _ _ 3).trans (final m c)]
  refine (shapeCast_apply _ _ (ix1 b) (ix2 b (0 : Fin 1)) ?_).trans rfl
  rw [Shape.rowMajor_val_one, Shape.rowMajor_val_two]
  show b.val * 1 + 0 = b.val
  omega

/-- THE RUN, READ: every weakly fair execution of the idealized kernel ends with its result at the result function of
    the three arguments as launched, and the arguments unchanged. -/
theorem run : θ_run defs (onTc (τ := τ) (main (F := Ideal))) ⟨m, fun _ => 0, ρ⟩ fun r => ∀ c : Dev nD,
      r.2.mem ((c.tc : Thread nD τ).loc main_v2) = LinPool.G (aX m c) (aW m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Result

end
-- ==== Proof.lean ====
/-
  The certificate of one kernel against its reference: a linear layer (4096 rows, 4096 features, 2048 inputs) with
  bias, a maximum over each group of four consecutive features, the sum of the 1024 group maxima of a row, times ½.

  The kernel tiles the 4096 × 4096 output into 8 × 8 tiles of 512 × 512 and never stores it: for each tile it forms
  the 128 group maxima of each of its 512 rows, sums them, and adds the sum into a column carried along the row of
  tiles; the last tile of the row scales the column and stores it. The reference forms the whole output, regroups it,
  takes the maxima and sums all 1024 of a row at once. Over the extended reals the two agree entry by entry, because a
  sum of 1024 terms is the sum of its eight consecutive runs of 128 (addition is commutative and associative there);
  nothing about the inputs being finite is used.

  The three frames are the generated ones (the reference's is its generated run with the result dropped); the
  idealization rewrote no operation, so it preserves the kernel trivially; the algebraic claim joins the kernel's run
  (Proof/Final.lean) and the reference's (Proof/RefSide.lean) at one function of the arguments (Proof/Spec.lean).
-/
import proofs.«122881_j1580547970873_1_alg».proof.Defs
import proofs.«122881_j1580547970873_1_alg».proof.Proof.Gen.Kernel
import proofs.«122881_j1580547970873_1_alg».proof.Proof.Gen.Kernel.Skeleton
import proofs.«122881_j1580547970873_1_alg».proof.Proof.Gen.Kernel.Launch
import proofs.«122881_j1580547970873_1_alg».proof.Proof.Gen.Kernel.Points
import proofs.«122881_j1580547970873_1_alg».proof.Proof.Gen.Kernel.Frame
import proofs.«122881_j1580547970873_1_alg».proof.Proof.Gen.KernelIdeal
import proofs.«122881_j1580547970873_1_alg».proof.Proof.Gen.KernelIdeal.Skeleton
import proofs.«122881_j1580547970873_1_alg».proof.Proof.Gen.KernelIdeal.Launch
import proofs.«122881_j1580547970873_1_alg».proof.Proof.Gen.KernelIdeal.Points
import proofs.«122881_j1580547970873_1_alg».proof.Proof.Gen.KernelIdeal.Frame
import proofs.«122881_j1580547970873_1_alg».proof.Proof.Gen.ReferenceIdeal
import proofs.«122881_j1580547970873_1_alg».proof.Proof.Gen.ReferenceIdeal.Run
import proofs.«122881_j1580547970873_1_alg».proof.Proof.Gen.ReferenceIdeal.Read
import proofs.«122881_j1580547970873_1_alg».proof.Proof.Gen.Pre_finite_inputs
import proofs.«122881_j1580547970873_1_alg».proof.Proof.RefSide
import proofs.«122881_j1580547970873_1_alg».proof.Proof.Final
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the three arguments both programs end at the same function of them. -/
theorem algebraic : Cert.algebraic_KernelIdeal_ReferenceIdeal := by
  intro m ρ m' ρ' _ hagree
  refine ⟨fun c => LinPool.G (Cert.KernelIdeal.Accum.aX m c) (Cert.KernelIdeal.Accum.aW m c) (Cert.KernelIdeal.Accum.aB m c),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.ReferenceIdeal.RefValue.result_is_G,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
